-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1024x64 : Shape := ⟨2, ![1024, 64]⟩
abbrev S1250000 : Shape := ⟨1, ![1250000]⟩
abbrev S20000 : Shape := ⟨1, ![20000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S100000x64 .f32) (main_arg1 : FVec F S1024x64 .f32) (main_arg2 : IVec S1250000 32) (main_arg3 : IVec S1250000 32) (main_arg4 : IVec S1250000 32) (main_arg5 : IVec S20000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S100000x64 : Shape := ⟨2, ![100000, 64]⟩
abbrev S1024x64 : Shape := ⟨2, ![1024, 64]⟩
abbrev S1250000 : Shape := ⟨1, ![1250000]⟩
abbrev S20000 : Shape := ⟨1, ![20000]⟩
abbrev S_ : Shape := ⟨0, ![]⟩
abbrev S1250000x1 : Shape := ⟨2, ![1250000, 1]⟩
abbrev S1250000x64 : Shape := ⟨2, ![1250000, 64]⟩
abbrev S10000x64 : Shape := ⟨2, ![10000, 64]⟩
abbrev S20000x1 : Shape := ⟨2, ![20000, 1]⟩
abbrev S20000x64 : Shape := ⟨2, ![20000, 64]⟩

abbrev nBuf : Space → Nat
  | .hbm => 41
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1024x64, .f32⟩
  | .hbm, ⟨2, _⟩ => ⟨S1250000, .i32⟩
  | .hbm, ⟨3, _⟩ => ⟨S1250000, .i32⟩
  | .hbm, ⟨4, _⟩ => ⟨S1250000, .i32⟩
  | .hbm, ⟨5, _⟩ => ⟨S20000, .i32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S_, .i32⟩
  | .hbm, ⟨16, _⟩ => ⟨S1250000, .i32⟩
  | .hbm, ⟨17, _⟩ => ⟨S1250000, .i1⟩
  | .hbm, ⟨18, _⟩ => ⟨S_, .i32⟩
  | .hbm, ⟨19, _⟩ => ⟨S1250000, .i32⟩
  | .hbm, ⟨20, _⟩ => ⟨S1250000, .i32⟩
  | .hbm, ⟨21, _⟩ => ⟨S1250000, .i32⟩
  | .hbm, ⟨22, _⟩ => ⟨S1250000x1, .i32⟩
  | .hbm, ⟨23, _⟩ => ⟨S1250000x64, .f32⟩
  | .hbm, ⟨24, _⟩ => ⟨S1250000x64, .f32⟩
  | .hbm, ⟨25, _⟩ => ⟨S_, .f32⟩
  | .hbm, ⟨26, _⟩ => ⟨S100000x64, .f32⟩
  | .hbm, ⟨27, _⟩ => ⟨S1250000x1, .i32⟩
  | .hbm, ⟨28, _⟩ => ⟨S100000x64, .f32⟩
  | .hbm, ⟨29, _⟩ => ⟨S_, .i32⟩
  | .hbm, ⟨30, _⟩ => ⟨S20000, .i32⟩
  | .hbm, ⟨31, _⟩ => ⟨S20000, .i1⟩
  | .hbm, ⟨32, _⟩ => ⟨S_, .i32⟩
  | .hbm, ⟨33, _⟩ => ⟨S20000, .i32⟩
  | .hbm, ⟨34, _⟩ => ⟨S20000, .i32⟩
  | .hbm, ⟨35, _⟩ => ⟨S20000, .i32⟩
  | .hbm, ⟨36, _⟩ => ⟨S20000x1, .i32⟩
  | .hbm, ⟨37, _⟩ => ⟨S_, .f32⟩
  | .hbm, ⟨38, _⟩ => ⟨S20000x64, .f32⟩
  | .hbm, ⟨39, _⟩ => ⟨S100000x64, .f32⟩
  | .hbm, ⟨40, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S100000x64 : S_.BroadcastsInDim S100000x64 (![] : Fin 0 → Fin S100000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x64 : S_.BroadcastsInDim S20000x64 (![] : Fin 0 → Fin S20000x64.rank)
  gather_S100000x64_S1250000x1_S1250000x64_1_0_n_n_0_1_164_wf : GatherDims.WF S100000x64 S1250000x1 S1250000x64 [1] [0] [] [0] [] 1 ![1, 64]
  gather_S1024x64_S1250000x1_S1250000x64_1_0_n_n_0_1_164_wf : GatherDims.WF S1024x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000x64_S20000x1_S20000x64_1_0_0_1_wf : ScatterDims.WF S100000x64 S20000x1 S20000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1250000x64.size a
  hwx0_1 : ∀ i : grid0.Coords, EltTy.bits .f32 = 32 ∨ (Rect.block (s := S1250000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1250000x64.size a
  hwx0_2 : ∀ i : grid0.Coords, EltTy.bits .f32 = 32 ∨ (Rect.block (s := S1250000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S1024x64_S1250000x1_S1250000x64_1_0_n_n_0_1_164 : GatherDims S1024x64 S1250000x1 S1250000x64 where
  offsetDims := [1]
  collapsedSliceDims := [0]
  operandBatchingDims := []
  startIndicesBatchingDims := []
  startIndexMap := [0]
  indexVectorDim := 1
  sliceSizes := ![1, 64]
  wf := gather_S1024x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000x64_S20000x1_S20000x64_1_0_0_1 : ScatterDims S100000x64 S20000x1 S20000x64 where
  updateWindowDims := [1]
  insertedWindowDims := [0]
  scatterDimsToOperandDims := [0]
  indexVectorDim := 1
  wf := scatter_S100000x64_S20000x1_S20000x64_1_0_0_1_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S1024x64 : Shape := ⟨2, ![1024, 64]⟩
abbrev S1250000 : Shape := ⟨1, ![1250000]⟩
abbrev S20000 : Shape := ⟨1, ![20000]⟩
abbrev S_ : Shape := ⟨0, ![]⟩
abbrev S20000x1 : Shape := ⟨2, ![20000, 1]⟩
abbrev S20000x64 : Shape := ⟨2, ![20000, 64]⟩
abbrev S1250000x1 : Shape := ⟨2, ![1250000, 1]⟩
abbrev S1250000x64 : Shape := ⟨2, ![1250000, 64]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1024x64, .f32⟩
  | .hbm, ⟨2, _⟩ => ⟨S1250000, .i32⟩
  | .hbm, ⟨3, _⟩ => ⟨S1250000, .i32⟩
  | .hbm, ⟨4, _⟩ => ⟨S1250000, .i32⟩
  | .hbm, ⟨5, _⟩ => ⟨S20000, .i32⟩
  | .hbm, ⟨6, _⟩ => ⟨S_, .i32⟩
  | .hbm, ⟨7, _⟩ => ⟨S20000, .i32⟩
  | .hbm, ⟨8, _⟩ => ⟨S20000, .i1⟩
  | .hbm, ⟨9, _⟩ => ⟨S_, .i32⟩
  | .hbm, ⟨10, _⟩ => ⟨S20000, .i32⟩
  | .hbm, ⟨11, _⟩ => ⟨S20000, .i32⟩
  | .hbm, ⟨12, _⟩ => ⟨S20000, .i32⟩
  | .hbm, ⟨13, _⟩ => ⟨S20000x1, .i32⟩
  | .hbm, ⟨14, _⟩ => ⟨S_, .f32⟩
  | .hbm, ⟨15, _⟩ => ⟨S20000x64, .f32⟩
  | .hbm, ⟨16, _⟩ => ⟨S100000x64, .f32⟩
  | .hbm, ⟨17, _⟩ => ⟨S_, .i32⟩
  | .hbm, ⟨18, _⟩ => ⟨S1250000, .i32⟩
  | .hbm, ⟨19, _⟩ => ⟨S1250000, .i1⟩
  | .hbm, ⟨20, _⟩ => ⟨S_, .i32⟩
  | .hbm, ⟨21, _⟩ => ⟨S1250000, .i32⟩
  | .hbm, ⟨22, _⟩ => ⟨S1250000, .i32⟩
  | .hbm, ⟨23, _⟩ => ⟨S1250000, .i32⟩
  | .hbm, ⟨24, _⟩ => ⟨S1250000x1, .i32⟩
  | .hbm, ⟨25, _⟩ => ⟨S1250000x64, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x64, .f32⟩
  | .hbm, ⟨35, _⟩ => ⟨S1250000x64, .f32⟩
  | .hbm, ⟨36, _⟩ => ⟨S_, .f32⟩
  | .hbm, ⟨37, _⟩ => ⟨S100000x64, .f32⟩
  | .hbm, ⟨38, _⟩ => ⟨S1250000x1, .i32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S20000x64 : S_.BroadcastsInDim S20000x64 (![] : Fin 0 → Fin S20000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  scatter_S100000x64_S20000x1_S20000x64_1_0_0_1_wf : ScatterDims.WF S100000x64 S20000x1 S20000x64 [1] [0] [0] 1
  gather_S100000x64_S1250000x1_S1250000x64_1_0_n_n_0_1_164_wf : GatherDims.WF S100000x64 S1250000x1 S1250000x64 [1] [0] [] [0] [] 1 ![1, 64]
  gather_S1024x64_S1250000x1_S1250000x64_1_0_n_n_0_1_164_wf : GatherDims.WF S1024x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def scatter_S100000x64_S20000x1_S20000x64_1_0_0_1 : ScatterDims S100000x64 S20000x1 S20000x64 where
  updateWindowDims := [1]
  insertedWindowDims := [0]
  scatterDimsToOperandDims := [0]
  indexVectorDim := 1
  wf := scatter_S100000x64_S20000x1_S20000x64_1_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S1024x64_S1250000x1_S1250000x64_1_0_n_n_0_1_164 : GatherDims S1024x64 S1250000x1 S1250000x64 where
  offsetDims := [1]
  collapsedSliceDims := [0]
  operandBatchingDims := []
  startIndicesBatchingDims := []
  startIndexMap := [0]
  indexVectorDim := 1
  sliceSizes := ![1, 64]
  wf := gather_S1024x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.ProductRegion.lean ====
/-
  The first launch of the kernel multiplies two arrays of 1,250,000 rows and 64 columns entry by entry, 10,000 rows
  at a time: grid point `t` reads rows `10000·t … 10000·t + 9999` of both operands and writes their entrywise product
  to the same rows of the result. The 125 row blocks are disjoint and together they are all the rows, so after the launch
  the result array is the entrywise product of the two whole operand arrays, whatever those held when the launch began.
  Nothing here depends on how a float is read: the statement is about which entries meet.
-/
import proofs.«159287_j55628416417927_2_alg».proof.Proof.Gen.KernelIdeal.Frame
import Idealize.ShloMosaic.Lib.Pipeline.Value

noncomputable section

namespace Cert.KernelIdeal.Product

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body loads and stores whole blocks: its offsets are zero on both axes. -/
theorem zero_offsets : (![0, 0] : Fin 2 → Nat) = fun _ => 0 := funext fun a => by fin_cases a <;> rfl

/-- The body's stored value is the entrywise product of the two loaded blocks (the two casts of a block to its own
    shape change nothing). -/
theorem stored_eq (x0 x1 : Vec F S10000x64 .f32) : k0_pay1 x0 x1 = mulf x0 x1 := by
  unfold k0_pay1
  rw [shapeCast_self, shapeCast_self]

/-- At every grid point the three windows sit on the same row block (block row = the point's number, block column 0),
    and the block row is one of 0 … 124. -/
theorem same_rows : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_2.index t (0 : Fin 2) ≤ 124 ∧ win0_2.index t (1 : Fin 2) = 0 :=
  (by decide +kernel : ∀ t : Fin grid0.N, _)

/-- Every one of the 125 row blocks is some grid point's. -/
theorem every_row_block : ∀ q : Fin 125, ∃ t : Fin cfg0.N, win0_2.index t = ![q.val, 0] :=
  (by decide +kernel : ∀ q : Fin 125, ∃ t : Fin grid0.N, win0_2.index t = ![q.val, 0])

/-- What grid point `t` writes back is rows `10000·t …` of the entrywise product of the two operand arrays. -/
theorem block_written (c : Dev nD) (t : Fin cfg0.N) :
    (dat0 V c).flushed 2 t = ((cfg0.win 2).blk t).view.read (Elt F) (mulf (V c main_v6) (V c main_v13)) := by
  show (cfg0.win 2).cut (grid0.coords t) ((dat0 V c).after 2 t) = _
  rw [after0_2]
  unfold out0_2
  rw [View.canon_unit_zero zero_offsets]
  simp only [View.ld_unit_zero (S := S10000x64) zero_offsets]
  rw [stored_eq]
  obtain ⟨e0, e1, e2, e3, -, -⟩ := same_rows t
  funext j
  show FloatOps.mulf (V c main_v6 (((cfg0.win 0).blk t).view.emb j)) (V c main_v13 (((cfg0.win 1).blk t).view.emb j))
     = FloatOps.mulf (V c main_v6 (((cfg0.win 2).blk t).view.emb j)) (V c main_v13 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 64 + 1 * (j 1).val = win0_2.index t (1 : Fin 2) * 64 + 1 * (j 1).val; omega
  rw [h0, h1]

/-- An entry of the result array lies in grid point `t`'s block exactly when its row and its column lie in the block's ranges. -/
theorem mem_block (t : Fin cfg0.N) (i : S1250000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v14).slice (win0_2.rect t)).set ↔ _
  rw [View.set_slice_whole, Rect.mem_set_unit]
  exact Iff.rfl

/-- Every entry of the result array is written by some grid point: row `r` by point `r / 10000`. -/
theorem every_entry_written (i : S1250000x64.Idx) :
    ∃ t : Fin cfg0.N, (cfg0.win 2).flush t = true ∧ i ∈ ((cfg0.win 2).blk t).view.set := by
  have hi0 : (i 0).val < 1250000 := (i 0).isLt
  have hi1 : (i 1).val < 64 := (i 1).isLt
  obtain ⟨t, ht⟩ := every_row_block ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the launch the result array is the entrywise product of the two operand arrays as the launch found them. -/
theorem array_eq (c : Dev nD) : (dat0 V c).arrAt 2 cfg0.N = mulf (V c main_v6) (V c main_v13) :=
  (dat0 V c).arrAt_eq_of_cover 2 _ (fun t _ => block_written V c t) every_entry_written

end Cert.KernelIdeal.Product

end
-- ==== Proof.SumRegion.lean ====
/-
  The second launch of the kernel adds two arrays of 100,000 rows and 64 columns entry by entry, 10,000 rows at a
  time: grid point `t` reads rows `10000·t … 10000·t + 9999` of both operands and writes their entrywise sum to the
  same rows of the result. The ten row blocks are disjoint and together they are all the rows, so after the launch the
  result array is the entrywise sum of the two whole operand arrays, whatever those held when the launch began.
-/
import proofs.«159287_j55628416417927_2_alg».proof.Proof.Gen.KernelIdeal.Frame
import Idealize.ShloMosaic.Lib.Pipeline.Value

noncomputable section

namespace Cert.KernelIdeal.Sum

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body loads and stores whole blocks: its offsets are zero on both axes. -/
theorem zero_offsets : (![0, 0] : Fin 2 → Nat) = fun _ => 0 := funext fun a => by fin_cases a <;> rfl

/-- The body's stored value is the entrywise sum of the two loaded blocks (the two casts of a block to its own
    shape change nothing). -/
theorem stored_eq (x0 x1 : Vec F S10000x64 .f32) : k1_pay1 x0 x1 = addf x0 x1 := by
  unfold k1_pay1
  rw [shapeCast_self, shapeCast_self]

/-- At every grid point the three windows sit on the same row block (block row = the point's number, block column 0),
    and the block row is one of 0 … 9. -/
theorem same_rows : ∀ t : Fin cfg1.N,
    win1_0.index t (0 : Fin 2) = win1_2.index t (0 : Fin 2) ∧ win1_0.index t (1 : Fin 2) = win1_2.index t (1 : Fin 2)
    ∧ win1_1.index t (0 : Fin 2) = win1_2.index t (0 : Fin 2) ∧ win1_1.index t (1 : Fin 2) = win1_2.index t (1 : Fin 2)
    ∧ win1_2.index t (0 : Fin 2) ≤ 9 ∧ win1_2.index t (1 : Fin 2) = 0 :=
  (by decide +kernel : ∀ t : Fin grid1.N, _)

/-- Every one of the ten row blocks is some grid point's. -/
theorem every_row_block : ∀ q : Fin 10, ∃ t : Fin cfg1.N, win1_2.index t = ![q.val, 0] :=
  (by decide +kernel : ∀ q : Fin 10, ∃ t : Fin grid1.N, win1_2.index t = ![q.val, 0])

/-- What grid point `t` writes back is rows `10000·t …` of the entrywise sum of the two operand arrays. -/
theorem block_written (c : Dev nD) (t : Fin cfg1.N) :
    (dat1 V c).flushed 2 t = ((cfg1.win 2).blk t).view.read (Elt F) (addf (V c main_v25) (V c main_v17)) := by
  show (cfg1.win 2).cut (grid1.coords t) ((dat1 V c).after 2 t) = _
  rw [after1_2]
  unfold out1_2
  rw [View.canon_unit_zero zero_offsets]
  simp only [View.ld_unit_zero (S := S10000x64) zero_offsets]
  rw [stored_eq]
  obtain ⟨e0, e1, e2, e3, -, -⟩ := same_rows t
  funext j
  show FloatOps.addf (V c main_v25 (((cfg1.win 0).blk t).view.emb j)) (V c main_v17 (((cfg1.win 1).blk t).view.emb j))
     = FloatOps.addf (V c main_v25 (((cfg1.win 2).blk t).view.emb j)) (V c main_v17 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

/-- An entry of the result array lies in grid point `t`'s block exactly when its row and its column lie in the block's ranges. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v26).slice (win1_2.rect t)).set ↔ _
  rw [View.set_slice_whole, Rect.mem_set_unit]
  exact Iff.rfl

/-- Every entry of the result array is written by some grid point: row `r` by point `r / 10000`. -/
theorem every_entry_written (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := every_row_block ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the launch the result array is the entrywise sum of the two operand arrays as the launch found them. -/
theorem array_eq (c : Dev nD) : (dat1 V c).arrAt 2 cfg1.N = addf (V c main_v25) (V c main_v17) :=
  (dat1 V c).arrAt_eq_of_cover 2 _ (fun t _ => block_written V c t) every_entry_written

end Cert.KernelIdeal.Sum

end
-- ==== Proof.KernelValue.lean ====
/-
  What the kernel's result array holds after the run, as one function of the six argument arrays.

  The program is: pick rows of `x` by `u` and rows of `weights` by `widx` (a negative row number counts from the end);
  FIRST LAUNCH, their entrywise product, the edge messages; add each message row into the row of a zero array that `v` names;
  overwrite the rows of `x` that `targets` names with zeros; SECOND LAUNCH, the entrywise sum of the two.
  The host steps are read off the program text one after the other; each launch's result array is the entrywise product,
  respectively sum, of its operand arrays as that launch found them (the two modules on the launches). No step writes an
  argument array, so every argument is read at its launch contents throughout.
-/
import proofs.«159287_j55628416417927_2_alg».proof.Proof.Gen.KernelIdeal.Frame
import proofs.«159287_j55628416417927_2_alg».proof.Proof.ProductRegion
import proofs.«159287_j55628416417927_2_alg».proof.Proof.SumRegion
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The layer as a function of its arguments -/

/-- The rows of `x` that the edge sources `u` name, one per edge; a negative source counts from the end of the 100,000 rows. -/
abbrev sourceRows (x : (⟨S100000x64, .f32⟩ : BufTy).Contents (Elt F)) (u : (⟨S1250000, .i32⟩ : BufTy).Contents (Elt F)) :
    (⟨S1250000x64, .f32⟩ : BufTy).Contents (Elt F) :=
  Host.gather gather_S100000x64_S1250000x1_S1250000x64_1_0_n_n_0_1_164 x (broadcastInDim S1250000x1 ![0] bcast_S1250000_S1250000x1_0 (select (cmpi .slt u (broadcastInDim S1250000 ![] bcast_S_S1250000 (constantI S_ 32 0#32))) (addi u (broadcastInDim S1250000 ![] bcast_S_S1250000 (constantI S_ 32 100000#32))) u))

/-- The rows of the weight table that `widx` names, one per edge; a negative number counts from the end of the 1,024 rows. -/
abbrev weightRows (w : (⟨S1024x64, .f32⟩ : BufTy).Contents (Elt F)) (widx : (⟨S1250000, .i32⟩ : BufTy).Contents (Elt F)) :
    (⟨S1250000x64, .f32⟩ : BufTy).Contents (Elt F) :=
  Host.gather gather_S1024x64_S1250000x1_S1250000x64_1_0_n_n_0_1_164 w (broadcastInDim S1250000x1 ![0] bcast_S1250000_S1250000x1_0 (select (cmpi .slt widx (broadcastInDim S1250000 ![] bcast_S_S1250000 (constantI S_ 32 0#32))) (addi widx (broadcastInDim S1250000 ![] bcast_S_S1250000 (constantI S_ 32 1024#32))) widx))

/-- The messages summed into the rows their destinations `v` name, from zero. -/
abbrev gathered (v : (⟨S1250000, .i32⟩ : BufTy).Contents (Elt F)) (msg : (⟨S1250000x64, .f32⟩ : BufTy).Contents (Elt F)) :
    (⟨S100000x64, .f32⟩ : BufTy).Contents (Elt F) :=
  Host.scatterAdd scatter_S100000x64_S1250000x1_S1250000x64_1_0_0_1 (broadcastInDim S100000x64 ![] bcast_S_S100000x64 (constant S_ .f32 0x00000000#32)) (broadcastInDim S1250000x1 ![0] bcast_S1250000_S1250000x1_0 v) msg

/-- `x` with the rows that `targets` names overwritten by zeros; a negative target counts from the end of the 100,000 rows. -/
abbrev cleared (x : (⟨S100000x64, .f32⟩ : BufTy).Contents (Elt F)) (tgt : (⟨S20000, .i32⟩ : BufTy).Contents (Elt F)) :
    (⟨S100000x64, .f32⟩ : BufTy).Contents (Elt F) :=
  Host.scatter scatter_S100000x64_S20000x1_S20000x64_1_0_0_1 (fun _ b => b) x (broadcastInDim S20000x1 ![0] bcast_S20000_S20000x1_0 (select (cmpi .slt tgt (broadcastInDim S20000 ![] bcast_S_S20000 (constantI S_ 32 0#32))) (addi tgt (broadcastInDim S20000 ![] bcast_S_S20000 (constantI S_ 32 100000#32))) tgt)) (broadcastInDim S20000x64 ![] bcast_S_S20000x64 (constant S_ .f32 0x00000000#32))

/-- The whole layer: the cleared `x` plus, row by row, the sum of the messages `x[u] · weights[widx]` whose destination is that row. -/
abbrev layer (x : (⟨S100000x64, .f32⟩ : BufTy).Contents (Elt F)) (w : (⟨S1024x64, .f32⟩ : BufTy).Contents (Elt F))
    (u v widx : (⟨S1250000, .i32⟩ : BufTy).Contents (Elt F)) (tgt : (⟨S20000, .i32⟩ : BufTy).Contents (Elt F)) :
    (⟨S100000x64, .f32⟩ : BufTy).Contents (Elt F) :=
  addf (cleared x tgt) (gathered v (mulf (sourceRows x u) (weightRows w widx)))

variable (m : (ℓ : Loc nD τ sig) → Buf (Elt F) ℓ) (ρ : Dev nD → PrngReg)

/-! ## The host steps before the first launch -/

/-- The first launch's first operand is the picked rows of `x`. -/
theorem operand_sources (c : Dev nD) :
    V1 m ρ c main_v6 = sourceRows (m ((c : Thread nD τ).loc main_arg0)) (m ((c : Thread nD τ).loc main_arg2)) := by
  show StableHlo.after hostOps0 (W0 m ρ c) (Proc.devRef .tc main_v6) = _
  after_results

/-- The first launch's second operand is the picked rows of the weight table. -/
theorem operand_weights (c : Dev nD) :
    V1 m ρ c main_v13 = weightRows (m ((c : Thread nD τ).loc main_arg1)) (m ((c : Thread nD τ).loc main_arg4)) := by
  show StableHlo.after hostOps0 (W0 m ρ c) (Proc.devRef .tc main_v13) = _
  after_results

/-! ## After the first launch -/

/-- The first launch leaves the messages: the entrywise product of the picked rows. -/
theorem messages (c : Dev nD) :
    W2 m ρ c (Proc.devRef .tc main_v14)
      = mulf (sourceRows (m ((c : Thread nD τ).loc main_arg0)) (m ((c : Thread nD τ).loc main_arg2)))
          (weightRows (m ((c : Thread nD τ).loc main_arg1)) (m ((c : Thread nD τ).loc main_arg4))) := by
  refine (W2_arr m ρ c 2).trans ((Product.array_eq (V1 m ρ) c).trans ?_)
  rw [operand_sources, operand_weights]

/-- The first launch and the host steps before it leave `x` as launched. -/
theorem x_kept (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results

/-- They leave the destinations `v` as launched. -/
theorem v_kept (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

/-- They leave `targets` as launched. -/
theorem targets_kept (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

/-! ## The host steps between the launches -/

/-- The second launch's first operand is `x` with the target rows zeroed. -/
theorem operand_cleared (c : Dev nD) :
    V3 m ρ c main_v25 = cleared (m ((c : Thread nD τ).loc main_arg0)) (m ((c : Thread nD τ).loc main_arg5)) := by
  show StableHlo.after hostOps1 (W2 m ρ c) (Proc.devRef .tc main_v25) = _
  after_results
  rw [x_kept, targets_kept]

/-- The second launch's second operand is the messages summed by destination. -/
theorem operand_gathered (c : Dev nD) :
    V3 m ρ c main_v17 = gathered (m ((c : Thread nD τ).loc main_arg3))
      (mulf (sourceRows (m ((c : Thread nD τ).loc main_arg0)) (m ((c : Thread nD τ).loc main_arg2)))
        (weightRows (m ((c : Thread nD τ).loc main_arg1)) (m ((c : Thread nD τ).loc main_arg4)))) := by
  show StableHlo.after hostOps1 (W2 m ρ c) (Proc.devRef .tc main_v17) = _
  after_results
  rw [v_kept, messages]

/-! ## After the second launch -/

/-- The result array after the second launch is the layer of the argument arrays as launched. -/
theorem result (c : Dev nD) :
    W4 m ρ c (Proc.devRef .tc main_v26)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m ρ c 2).trans ((Sum.array_eq (V3 m ρ) c).trans ?_)
  rw [operand_cleared, operand_gathered]

/-! ## The run -/

-- the launch theorem's implicit arguments are found by unifying its conclusion with this one, which takes unfolding
-- plain definitions in a metavariable's type
set_option backward.isDefEq.respectTransparency.types false in
/-- Every weakly fair execution of the kernel's program terminates, nothing faulting, with the result array at the layer
    of the argument arrays and every argument array as launched: the program's segments launched as in the frame, the
    final state read at the result array as well. -/
theorem run : θ_run defs (onTc (τ := τ) (main (F := F))) ⟨m, fun _ => 0, ρ⟩ (fun r => ∀ c : Dev nD,
      r.2.mem ((c.tc : Thread nD τ).loc main_v26)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v26 (by decide))).trans (result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Layer

end
-- ==== Proof.lean ====
/-
  One layer of message passing on a graph with 100,000 nodes of 64 features, 1,250,000 edges and a table of 1,024
  weight rows: the result is `x` with the rows named by `targets` set to zero, plus, row by row, the sum over the edges
  arriving at that node of `x[u] · weights[widx]` (entrywise).

  The kernel and the reference run the SAME host steps on the same arguments — the two row pickings, the summation by
  destination from a zero array, the zeroing of the target rows, with the same handling of negative row numbers — and
  differ in two places only: the entrywise product of the picked rows and the final entrywise sum are done by the kernel
  in two launches, 10,000 rows at a time, and by the reference in one operation each. A launch that writes disjoint
  row blocks covering all rows, each block the product (sum) of the same rows of its operands, leaves the product (sum)
  of the whole operands. So both programs end with the same expression of the arguments, and no law of arithmetic is
  used: in particular nothing needs the inputs to be finite.

  The kernel's idealization rewrote no operation, so that claim is trivially true; the frames of the two kernel
  programs are the generated ones, and the reference's is its run with the result forgotten.
-/
import proofs.«159287_j55628416417927_2_alg».proof.Defs
import proofs.«159287_j55628416417927_2_alg».proof.Proof.Gen.Kernel
import proofs.«159287_j55628416417927_2_alg».proof.Proof.Gen.Kernel.Frame
import proofs.«159287_j55628416417927_2_alg».proof.Proof.Gen.KernelIdeal
import proofs.«159287_j55628416417927_2_alg».proof.Proof.Gen.KernelIdeal.Frame
import proofs.«159287_j55628416417927_2_alg».proof.Proof.Gen.ReferenceIdeal
import proofs.«159287_j55628416417927_2_alg».proof.Proof.Gen.Pre_finite_inputs
import proofs.«159287_j55628416417927_2_alg».proof.Proof.Gen.ReferenceIdeal.Run
import proofs.«159287_j55628416417927_2_alg».proof.Proof.KernelValue

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote nothing in it. -/
theorem preserves : Cert.preserves_Kernel_KernelIdeal := trivial

/-- From memories that agree on the six arguments both programs end with the layer of those arguments: the kernel by
    its two launches read as a whole-array product and a whole-array sum, the reference by its own operations; once
    the reference's arguments are replaced by the kernel's the two expressions are the same. -/
theorem algebraic : Cert.algebraic_KernelIdeal_ReferenceIdeal := by
  intro m ρ m' ρ' _ hagree
  refine ⟨_, Cert.KernelIdeal.Layer.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
